-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S960x512 : Shape := ⟨2, ![960, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S960x512 : S_.BroadcastsInDim S960x512 (![] : Fin 0 → Fin S960x512.rank)
  reducesTo_S960x512_S_d0_1 : S960x512.ReducesTo [0, 1] S_

variable [Facts]

def fn_part1 {F : FTy → Type} [FloatOps F] (main_v13 : IVec S_ 1) (main_v16 : IVec S960x512 1) : IVec S_ 1 :=
  let main_c_5 : IVec S_ 1 := constantI S_ 1 1#1
  let main_v17 : IVec S_ 1 := (fun x v => Host.reduce IntOp.andi x v reducesTo_S960x512_S_d0_1 h_S_) main_v16 main_c_5
  let main_v18 : IVec S_ 1 := andi main_v13 main_v17
  main_v18

def fn {F : FTy → Type} [FloatOps F] (main_arg0 : FVec F S32768x512 .f32) (main_arg1 : FVec F S32768x512 .f32) (main_arg2 : FVec F S512x512 .f32) (main_arg3 : FVec F S960x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S960x512 .f32 := Host.absf main_arg3
  let main_cst_4 : FVec F S_ .f32 := constant S_ .f32 0x7F800000#32
  let main_v15 : FVec F S960x512 .f32 := broadcastInDim S960x512 ![] bcast_S_S960x512 main_cst_4
  let main_v16 : IVec S960x512 1 := cmpf .olt main_v14 main_v15
  fn_part1 (F := F) main_v13 main_v16
-- ==== Kernel.lean ====
abbrev S32768x512 : Shape := ⟨2, ![32768, 512]⟩
abbrev S512x512 : Shape := ⟨2, ![512, 512]⟩
abbrev S960x512 : Shape := ⟨2, ![960, 512]⟩
abbrev S512x960 : Shape := ⟨2, ![512, 960]⟩
abbrev S32768x960 : Shape := ⟨2, ![32768, 960]⟩
abbrev S2048x512 : Shape := ⟨2, ![2048, 512]⟩
abbrev S2048x960 : Shape := ⟨2, ![2048, 960]⟩

abbrev nBuf : Space → Nat
  | .hbm => 10
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S960x512, .f32⟩
  | .hbm, ⟨4, _⟩ => ⟨S512x512, .f32⟩
  | .hbm, ⟨5, _⟩ => ⟨S512x512, .bf16⟩
  | .hbm, ⟨6, _⟩ => ⟨S960x512, .f32⟩
  | .hbm, ⟨7, _⟩ => ⟨S512x960, .f32⟩
  | .hbm, ⟨8, _⟩ => ⟨S512x960, .bf16⟩
  | .hbm, ⟨9, _⟩ => ⟨S32768x960, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x960, .bf16⟩
  | .local _ .vmem, ⟨6, _⟩ => ⟨S2048x960, .f32⟩
  | .local _ .vmem, ⟨7, _⟩ => ⟨S2048x960, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x512_S512x512_1_0 : S512x512.Transposes [1, 0] S512x512
  bitsLt_bf16_f32 : FTy.bits .bf16 < FTy.bits .f32
  transposes_S960x512_S512x960_1_0 : S960x512.Transposes [1, 0] S512x960
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x960_S512x960_0_0 : ∀ a, (![0, 0] : Fin 2 → Nat) a + S512x960.size a ≤ S512x960.size a
  h_S512x960 : 0 < S512x960.numel
  shapeCasts_S512x960_S512x960 : S512x960.ShapeCasts S512x960
  inb_S2048x960_S2048x960_0_0 : ∀ a, (![0, 0] : Fin 2 → Nat) a + S2048x960.size a ≤ S2048x960.size a
  h_S2048x960 : 0 < S2048x960.numel
  dot_S2048x512_S512x512_S2048x512_1_0_0_1_n_n_wf : DotDims.WF S2048x512 S512x512 S2048x512 [1] [0] [0] [1] [] []
  dot_S2048x512_S512x960_S2048x960_1_0_0_1_n_n_wf : DotDims.WF S2048x512 S512x960 S2048x960 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x960.size a ≤ S512x960.size a
  hwx0_3 : ∀ i : grid0.Coords, EltTy.bits .bf16 = 32 ∨ (Rect.block (s := S512x960) S512x960.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x960.size a ≤ S32768x960.size a
  hwx0_4 : ∀ i : grid0.Coords, EltTy.bits .f32 = 32 ∨ (Rect.block (s := S32768x960) S2048x960.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x960_S2048x960_1_0_0_1_n_n : DotDims S2048x512 S512x960 S2048x960 where
  lhsContracting := [1]
  rhsContracting := [0]
  lhsNonContracting := [0]
  rhsNonContracting := [1]
  lhsBatch := []
  rhsBatch := []
  wf := dot_S2048x512_S512x960_S2048x960_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x960.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x960.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S960x512 : Shape := ⟨2, ![960, 512]⟩
abbrev S512x960 : Shape := ⟨2, ![512, 960]⟩
abbrev S32768x960 : Shape := ⟨2, ![32768, 960]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S960x512, .f32⟩
  | .hbm, ⟨4, _⟩ => ⟨S512x512, .f32⟩
  | .hbm, ⟨5, _⟩ => ⟨S32768x512, .f32⟩
  | .hbm, ⟨6, _⟩ => ⟨S32768x512, .f32⟩
  | .hbm, ⟨7, _⟩ => ⟨S960x512, .f32⟩
  | .hbm, ⟨8, _⟩ => ⟨S512x960, .f32⟩
  | .hbm, ⟨9, _⟩ => ⟨S32768x960, .f32⟩
  | .hbm, ⟨10, _⟩ => ⟨S32768x960, .f32⟩
  | .hbm, ⟨11, _⟩ => ⟨S32768x960, .f32⟩
  | .hbm, ⟨12, _⟩ => ⟨S_, .f32⟩
  | .hbm, ⟨13, _⟩ => ⟨S32768x960, .f32⟩
  | .hbm, ⟨14, _⟩ => ⟨S32768x960, .f32⟩
  | .hbm, ⟨15, _⟩ => ⟨S_, .f32⟩
  | .hbm, ⟨16, _⟩ => ⟨S32768x960, .f32⟩
  | .hbm, ⟨17, _⟩ => ⟨S32768x960, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S512x512_S512x512_1_0 : S512x512.Transposes [1, 0] S512x512
  transposes_S960x512_S512x960_1_0 : S960x512.Transposes [1, 0] S512x960
  bcast_S_S32768x960 : S_.BroadcastsInDim S32768x960 (![] : Fin 0 → Fin S32768x960.rank)
  dot_S32768x512_S512x512_S32768x512_1_0_0_1_n_n_wf : DotDims.WF S32768x512 S512x512 S32768x512 [1] [0] [0] [1] [] []
  dot_S32768x512_S512x960_S32768x960_1_0_0_1_n_n_wf : DotDims.WF S32768x512 S512x960 S32768x960 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x960_S32768x960_1_0_0_1_n_n : DotDims S32768x512 S512x960 S32768x960 where
  lhsContracting := [1]
  rhsContracting := [0]
  lhsNonContracting := [0]
  rhsNonContracting := [1]
  lhsBatch := []
  rhsBatch := []
  wf := dot_S32768x512_S512x960_S32768x960_1_0_0_1_n_n_wf

class Facts : Prop extends Facts₀ where

variable [Facts]
-- ==== Proof.Spec.lean ====
/-
  The function both programs compute, over the extended reals.  For a row `b` of the two embedding arrays
  `zi`, `zj` (32768 × 512), the square matrix `R` (512 × 512) and a row `r` of the diagonal factors `D` (960 × 512):

      score b r  =  Σ_h  ( zi[b,h] · ( Σ_k zj[b,k] · R[h,k] ) ) · ( D[r,h] · D[r,h] ),
      result b r =  σ (score b r),      σ x = 1 / (1 + e^(-x)).

  The inner sum is row `b` of `zj · Rᵀ`; the outer sum is row `b` of `(zi ∘ (zj · Rᵀ)) · (D ∘ D)ᵀ`.  Both programs
  form the two sums with the same nesting and the same factors in the same order, so no law beyond reading each
  operation at an index is needed; the claim's precondition, that every input is finite, is never used.
-/
import Idealize.ShloMosaic.PureOps.Ideal
import Idealize.ShloMosaic.Lib.ValueIdx

noncomputable section

open scoped BigOperators

namespace Cert.Score

open Idealize.ShloMosaic Idealize.ShloMosaic.ValueIdx

/-- The score before the sigmoid, at row `b` of the embeddings and row `r` of the diagonal factors. -/
def score (zi zj : (⟨2, ![32768, 512]⟩ : Shape).Idx → EReal) (R : (⟨2, ![512, 512]⟩ : Shape).Idx → EReal)
    (D : (⟨2, ![960, 512]⟩ : Shape).Idx → EReal) (b : Fin 32768) (r : Fin 960) : EReal :=
  ∑ h : Fin 512, (zi (ix2 b h) * ∑ k : Fin 512, zj (ix2 b k) * R (ix2 h k)) * (D (ix2 r h) * D (ix2 r h))

/-- The whole result array: the sigmoid of the score, index by index. -/
def result (zi zj : (⟨2, ![32768, 512]⟩ : Shape).Idx → EReal) (R : (⟨2, ![512, 512]⟩ : Shape).Idx → EReal)
    (D : (⟨2, ![960, 512]⟩ : Shape).Idx → EReal) : (⟨2, ![32768, 960]⟩ : Shape).Idx → EReal :=
  fun i => Ideal.logistic (score zi zj R D (i 0) (i 1))

/-- The float word `0x3F800000` is the number one. -/
theorem one_f32 : Ideal.ofBits .f32 0x3F800000#32 = (1 : EReal) := by
  simp [Ideal.ofBits, Ideal.ieee, -EReal.coe_mul]; norm_num

/-- The sigmoid spelt out as a quotient, with the float word for one in both places, is the sigmoid. -/
theorem logistic_spelt (x : EReal) :
    Ideal.div (Ideal.ofBits .f32 0x3F800000#32) (Ideal.ofBits .f32 0x3F800000#32 + Ideal.exp (-x)) = Ideal.logistic x := by
  rw [one_f32]; rfl

end Cert.Score

end
-- ==== Proof.RefValue.lean ====
/-
  The reference program's result, read index by index, is the specification's `result`.

  Reading the reference's operations from the last to the first at an index `(b, r)`:
  the quotient `1 / (1 + e^(-s))` is the sigmoid of `s`; `s` is the second product's entry, a sum over `h` of
  the entry `(b, h)` of `zi ∘ (zj · Rᵀ)` times the entry `(h, r)` of `(D ∘ D)ᵀ`; the first is `zi[b,h]` times the sum
  over `k` of `zj[b,k]` times `Rᵀ[k,h] = R[h,k]`; the second is `D[r,h] · D[r,h]`.  That is the specification's
  double sum, term for term.
-/
import proofs.«132086_j50895362458308_2_alg».proof.Proof.Gen.ReferenceIdeal.Read
import proofs.«132086_j50895362458308_2_alg».proof.Proof.Spec

noncomputable section

open scoped BigOperators

namespace Cert.ReferenceIdeal.RefValue

open Cert.ReferenceIdeal Cert.ReferenceIdeal.Read Idealize.ShloMosaic Idealize.ShloMosaic.ValueIdx

/-- Row `b`, column `h` of `zj · Rᵀ`: the sum over `k` of `zj[b,k] · R[h,k]`. -/
theorem first_product (x1 : S32768x512.Idx → EReal) (x2 : S512x512.Idx → EReal) (b : Fin 32768) (h : Fin 512) :
    val_main_v1 (F := Ideal) x1 x2 (ix2 b h) = ∑ k : Fin 512, x1 (ix2 b k) * x2 (ix2 h k) := by
  rw [val_main_v1_apply]
  refine Finset.sum_congr rfl fun k _ => ?_
  rw [val_main_v0_apply]
  have e1 : lidx_main_v1 (ix2 b h) k = ix2 b k := funext fun a => by
    match a with
    | ⟨0, _⟩ => rfl
    | ⟨1, _⟩ => rfl
  have e2 : idx_main_v0 (ridx_main_v1 (ix2 b h) k) = ix2 h k := funext fun a => by
    match a with
    | ⟨0, _⟩ => rfl
    | ⟨1, _⟩ => rfl
  rw [e1, e2]

/-- Row `h`, column `r` of `(D ∘ D)ᵀ`: `D[r,h] · D[r,h]`. -/
theorem squared_transposed (x3 : S960x512.Idx → EReal) (h : Fin 512) (r : Fin 960) :
    val_main_v4 (F := Ideal) x3 (ix2 h r) = x3 (ix2 r h) * x3 (ix2 r h) := by
  rw [val_main_v4_apply, val_main_v3_apply]
  have e : idx_main_v4 (ix2 h r) = ix2 r h := funext fun a => by
    match a with
    | ⟨0, _⟩ => rfl
    | ⟨1, _⟩ => rfl
  rw [e]
  rfl

/-- The second product at `(b, r)` is the specification's score. -/
theorem second_product (x0 x1 : S32768x512.Idx → EReal) (x2 : S512x512.Idx → EReal) (x3 : S960x512.Idx → EReal)
    (b : Fin 32768) (r : Fin 960) :
    val_main_v5 (F := Ideal) x0 x1 x2 x3 (ix2 b r) = Cert.Score.score x0 x1 x2 x3 b r := by
  rw [val_main_v5_apply]
  unfold Cert.Score.score
  refine Finset.sum_congr rfl fun h _ => ?_
  have el : lidx_main_v5 (ix2 b r) h = ix2 b h := funext fun a => by
    match a with
    | ⟨0, _⟩ => rfl
    | ⟨1, _⟩ => rfl
  have er : ridx_main_v5 (ix2 b r) h = ix2 h r := funext fun a => by
    match a with
    | ⟨0, _⟩ => rfl
    | ⟨1, _⟩ => rfl
  rw [el, er, val_main_v2_apply, first_product, squared_transposed]
  rfl

/-- The reference's result array is the specification's. -/
theorem result_eq (x0 x1 : S32768x512.Idx → EReal) (x2 : S512x512.Idx → EReal) (x3 : S960x512.Idx → EReal) :
    val_main_v11 (F := Ideal) x0 x1 x2 x3 = Cert.Score.result x0 x1 x2 x3 := by
  funext i
  obtain ⟨b, r, rfl⟩ : ∃ (b : Fin 32768) (r : Fin 960), i = ix2 b r := ⟨i 0, i 1, eq_ix2 i⟩
  rw [val_main_v11_apply, val_main_v10_apply, val_main_cst_0_apply, val_main_v9_apply, val_main_v8_apply,
    val_main_cst_apply, val_main_v7_apply, val_main_v6_apply, second_product]
  exact Cert.Score.logistic_spelt _

end Cert.ReferenceIdeal.RefValue

end
-- ==== Proof.Body.lean ====
/-
  What the kernel's body stores, read at an index of the output block.

  At one grid point the body holds a 2048-row block of `zj` and of `zi`, the whole of `Rᵀ` and the whole of
  `(D ∘ D)ᵀ`.  Changes of float format are the identity on the extended reals, and a matrix product into a zero
  accumulator is the plain sum over the contracted index.  So the stored value at row `p`, column `q` of the block is

      σ ( Σ_h ( zi[p,h] · ( Σ_k zj[p,k] · Rᵀ[k,h] ) ) · (D ∘ D)ᵀ[h,q] ).
-/
import proofs.«132086_j50895362458308_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two products' operand indices: row of the left operand, column of the right -/

theorem left_row_A (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl

theorem right_col_A (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem left_row_B (i : S2048x960.Idx) (q : dot_S2048x512_S512x960_S2048x960_1_0_0_1_n_n.contr.Idx) :
    (dot_S2048x512_S512x960_S2048x960_1_0_0_1_n_n.lhsIdx i q 0).val = (i 0).val := by
  unfold DotDims.lhsIdx
  rw [dif_neg (show ¬(0 : Fin S2048x512.rank) ∈ dot_S2048x512_S512x960_S2048x960_1_0_0_1_n_n.lhsBatch by decide), dif_pos (show (0 : Fin S2048x512.rank) ∈ dot_S2048x512_S512x960_S2048x960_1_0_0_1_n_n.lhsNonContracting by decide)]
  rfl

theorem right_col_B (i : S2048x960.Idx) (q : dot_S2048x512_S512x960_S2048x960_1_0_0_1_n_n.contr.Idx) :
    (dot_S2048x512_S512x960_S2048x960_1_0_0_1_n_n.rhsIdx i q 1).val = (i 1).val := by
  unfold DotDims.rhsIdx
  rw [dif_neg (show ¬(1 : Fin S512x960.rank) ∈ dot_S2048x512_S512x960_S2048x960_1_0_0_1_n_n.rhsBatch by decide), dif_pos (show (1 : Fin S512x960.rank) ∈ dot_S2048x512_S512x960_S2048x960_1_0_0_1_n_n.rhsNonContracting by decide)]
  rfl

/-! ## Each product at an index -/

/-- The first product, a 2048 × 512 block times a 512 × 512 matrix into zero, at `(p, h)`: the sum over `k` of
    left `(p, k)` times right `(k, h)`. -/
theorem first_product (l : FVec Ideal S2048x512 .bf16) (r : FVec Ideal S512x512 .bf16) (p : Fin 2048) (h : Fin 512) :
    FloatOps.matmul dot_S2048x512_S512x512_S2048x512_1_0_0_1_n_n none l r (constant (F := Ideal) S2048x512 .f32 0x00000000#32) (ix2 p h)
      = ∑ k : Fin 512, l (ix2 p k) * r (ix2 k h) := by
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p h) ((contrEquiv1 dot_S2048x512_S512x512_S2048x512_1_0_0_1_n_n 512 rfl rfl).symm k) = ix2 p k := funext fun a => Fin.ext (by
    match a with
    | ⟨0, _⟩ => exact left_row_A _ _
    | ⟨1, _⟩ => exact (dot_S2048x512_S512x512_S2048x512_1_0_0_1_n_n.lhsIdx_val_of_single rfl _ _).trans hk)
  have er : dot_S2048x512_S512x512_S2048x512_1_0_0_1_n_n.rhsIdx (ix2 p h) ((contrEquiv1 dot_S2048x512_S512x512_S2048x512_1_0_0_1_n_n 512 rfl rfl).symm k) = ix2 k h := funext fun a => Fin.ext (by
    match a with
    | ⟨0, _⟩ => exact (dot_S2048x512_S512x512_S2048x512_1_0_0_1_n_n.rhsIdx_val_of_single rfl _ _).trans hk
    | ⟨1, _⟩ => exact right_col_A _ _)
  rw [el, er]

/-- The second product, a 2048 × 512 block times a 512 × 960 matrix into zero, at `(p, q)`: the sum over `h` of
    left `(p, h)` times right `(h, q)`. -/
theorem second_product (l : FVec Ideal S2048x512 .bf16) (r : FVec Ideal S512x960 .bf16) (p : Fin 2048) (q : Fin 960) :
    FloatOps.matmul dot_S2048x512_S512x960_S2048x960_1_0_0_1_n_n none l r (constant (F := Ideal) S2048x960 .f32 0x00000000#32) (ix2 p q)
      = ∑ h : Fin 512, l (ix2 p h) * r (ix2 h q) := by
  rw [Ideal.matmul_constant_zero_apply, ← Equiv.sum_comp (contrEquiv1 dot_S2048x512_S512x960_S2048x960_1_0_0_1_n_n 512 rfl rfl).symm]
  refine Finset.sum_congr rfl fun k _ => ?_
  have hk := contrEquiv1_symm_val dot_S2048x512_S512x960_S2048x960_1_0_0_1_n_n 512 rfl rfl k
  have el : dot_S2048x512_S512x960_S2048x960_1_0_0_1_n_n.lhsIdx (ix2 p q) ((contrEquiv1 dot_S2048x512_S512x960_S2048x960_1_0_0_1_n_n 512 rfl rfl).symm k) = ix2 p k := funext fun a => Fin.ext (by
    match a with
    | ⟨0, _⟩ => exact left_row_B _ _
    | ⟨1, _⟩ => exact (dot_S2048x512_S512x960_S2048x960_1_0_0_1_n_n.lhsIdx_val_of_single rfl _ _).trans hk)
  have er : dot_S2048x512_S512x960_S2048x960_1_0_0_1_n_n.rhsIdx (ix2 p q) ((contrEquiv1 dot_S2048x512_S512x960_S2048x960_1_0_0_1_n_n 512 rfl rfl).symm k) = ix2 k q := funext fun a => Fin.ext (by
    match a with
    | ⟨0, _⟩ => exact (dot_S2048x512_S512x960_S2048x960_1_0_0_1_n_n.rhsIdx_val_of_single rfl _ _).trans hk
    | ⟨1, _⟩ => exact right_col_B _ _)
  rw [el, er]

/-! ## The stored value at an index -/

/-- The body's stored value at row `p`, column `q` of the output block, from the four loaded blocks:
    `zj`'s block, `Rᵀ`, `zi`'s block and `(D ∘ D)ᵀ`. -/
theorem stored_apply (zj : Vec Ideal S2048x512 .f32) (rt : Vec Ideal S512x512 .bf16) (zi : Vec Ideal S2048x512 .f32)
    (d2 : Vec Ideal S512x960 .bf16) (p : Fin 2048) (q : Fin 960) :
    k0_pay1 (F := Ideal) zj rt zi d2 (ix2 p q)
      = Ideal.logistic (∑ h : Fin 512, (zi (ix2 p h) * ∑ k : Fin 512, zj (ix2 p k) * rt (ix2 k h)) * d2 (ix2 h q)) := by
  unfold k0_pay1
  rw [shapeCast_self, shapeCast_self]
  refine congrArg Ideal.logistic ?_
  refine (second_product _ _ p q).trans ?_
  refine Finset.sum_congr rfl fun h _ => ?_
  refine congrArg (· * d2 (ix2 h q)) ?_
  refine congrArg (zi (ix2 p h) * ·) ?_
  exact first_product _ _ p h

end Cert.KernelIdeal.Body

end
-- ==== Proof.Whole.lean ====
/-
  From what each grid point writes to the whole result array.

  The grid has 16 points; point `t` holds rows `2048·t … 2048·t + 2047` of `zi` and of `zj`, the whole of the two
  matrices the host prepared — `Rᵀ`, whose entry `(k, h)` is `R[h,k]`, and `(D ∘ D)ᵀ`, whose entry `(h, q)` is
  `D[q,h] · D[q,h]` — and writes rows `2048·t … 2048·t + 2047` of the result.  So what point `t` writes at row `p`,
  column `q` of its block is the specification's `result` at row `2048·t + p`, column `q`; the sixteen blocks tile
  the 32768 rows, the row `b` lying in block `b / 2048`; hence the array ends holding `result` everywhere.
-/
import proofs.«132086_j50895362458308_2_alg».proof.Proof.Gen.KernelIdeal.Value
import proofs.«132086_j50895362458308_2_alg».proof.Proof.Body
import proofs.«132086_j50895362458308_2_alg».proof.Proof.Spec
import Idealize.ShloMosaic.Lib.Pipeline.Value
import Idealize.ShloMosaic.Lib.StableHlo.Run
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The four argument arrays as launched, as functions from their indices to the extended reals. -/
abbrev argZi (c : Dev nD) : S32768x512.Idx → EReal := m ((c : Thread nD τ).loc main_arg0)
abbrev argZj (c : Dev nD) : S32768x512.Idx → EReal := m ((c : Thread nD τ).loc main_arg1)
abbrev argR (c : Dev nD) : S512x512.Idx → EReal := m ((c : Thread nD τ).loc main_arg2)
abbrev argD (c : Dev nD) : S960x512.Idx → EReal := m ((c : Thread nD τ).loc main_arg3)

/-- The two matrices the host prepares, as the launch finds them. -/
abbrev prepRt (c : Dev nD) : S512x512.Idx → EReal := V m c main_v1
abbrev prepD2 (c : Dev nD) : S512x960.Idx → EReal := V m c main_v4

/-- The result array as the specification's function of the four argument arrays as launched. -/
abbrev spec (c : Dev nD) : S32768x960.Idx → EReal :=
  Cert.Score.result (argZi m c) (argZj m c) (argR m c) (argD m c)

/-- The specification at row `b`, column `r`. -/
theorem spec_apply (c : Dev nD) (b : Fin 32768) (r : Fin 960) :
    spec m c (ix2 b r) = Ideal.logistic (Cert.Score.score (argZi m c) (argZj m c) (argR m c) (argD m c) b r) := rfl

/-! ## Where each window's block sits, at every grid point -/

/-- The two row-blocked inputs and the output move down one block of rows per point; the two matrices stay. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The two matrices the host prepares before the launch -/

/-- The first prepared matrix is `R` transposed (the change of float format is the identity). -/
theorem prepared_rt (c : Dev nD) (k h : Fin 512) : prepRt m c (ix2 k h) = argR m c (ix2 h k) := by
  have e : prepRt m c
      = truncf (F := Ideal) .bf16 (transpose S512x512 [1, 0] (argR m c) transposes_S512x512_S512x512_1_0) bitsLt_bf16_f32 := by
    dsimp only [prepRt, argR, Gen.V, Gen.hostOps0]; after_results
  refine (congrFun e (ix2 k h)).trans ?_
  show transpose S512x512 [1, 0] (argR m c) transposes_S512x512_S512x512_1_0 (ix2 k h) = _
  exact transpose_apply [1, 0] _ transposes_S512x512_S512x512_1_0 (ix2 k h) (ix2 h k) (fun b => match b with
    | ⟨0, _⟩ => rfl
    | ⟨1, _⟩ => rfl)

/-- The second prepared matrix is the entrywise square of `D`, transposed. -/
theorem prepared_d2 (c : Dev nD) (h : Fin 512) (q : Fin 960) :
    prepD2 m c (ix2 h q) = argD m c (ix2 q h) * argD m c (ix2 q h) := by
  have e : prepD2 m c
      = truncf (F := Ideal) .bf16 (transpose S512x960 [1, 0] (mulf (F := Ideal) (argD m c) (argD m c)) transposes_S960x512_S512x960_1_0) bitsLt_bf16_f32 := by
    dsimp only [prepD2, argD, Gen.V, Gen.hostOps0]; after_results
  refine (congrFun e (ix2 h q)).trans ?_
  show transpose S512x960 [1, 0] (mulf (F := Ideal) (argD m c) (argD m c)) transposes_S960x512_S512x960_1_0 (ix2 h q) = _
  exact transpose_apply [1, 0] _ transposes_S960x512_S512x960_1_0 (ix2 h q) (ix2 q h) (fun b => match b with
    | ⟨0, _⟩ => rfl
    | ⟨1, _⟩ => rfl)

/-! ## Each input block read at an index -/

/-- Row `p` of `zi`'s block at point `t` is row `2048·t + p` of `zi`. -/
theorem zi_block (c : Dev nD) (t : Fin cfg0.N) (p : Fin 2048) (h : Fin 512) (b : Fin 32768) (hb : b.val = t.val * 2048 + p.val) :
    (iblk m c 0 t : Vec Ideal S2048x512 .f32) (ix2 p h) = argZi m c (ix2 b h) := by
  obtain ⟨e0, e1, -⟩ := block_indices t
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 2048 + 1 * p.val = b.val; rw [e0, hb]; omega
  | ⟨1, _⟩ => show win0_0.index t (1 : Fin 2) * 512 + 1 * h.val = h.val; rw [e1]; omega

/-- Row `p` of `zj`'s block at point `t` is row `2048·t + p` of `zj`. -/
theorem zj_block (c : Dev nD) (t : Fin cfg0.N) (p : Fin 2048) (k : Fin 512) (b : Fin 32768) (hb : b.val = t.val * 2048 + p.val) :
    (iblk m c 1 t : Vec Ideal S2048x512 .f32) (ix2 p k) = argZj m c (ix2 b k) := by
  obtain ⟨-, -, e0, e1, -⟩ := block_indices t
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 2048 + 1 * p.val = b.val; rw [e0, hb]; omega
  | ⟨1, _⟩ => show win0_1.index t (1 : Fin 2) * 512 + 1 * k.val = k.val; rw [e1]; omega

/-- The first matrix's block at every point is the whole of `Rᵀ`. -/
theorem rt_block (c : Dev nD) (t : Fin cfg0.N) (k h : Fin 512) :
    (iblk m c 2 t : Vec Ideal S512x512 .bf16) (ix2 k h) = argR m c (ix2 h k) := by
  obtain ⟨-, -, -, -, e0, e1, -⟩ := block_indices t
  unfold iblk
  rw [View.read_apply]
  show prepRt m c _ = _
  refine Eq.trans (congrArg _ (funext fun a => Fin.ext ?_)) (prepared_rt m c k h)
  match a with
  | ⟨0, _⟩ => show win0_2.index t (0 : Fin 2) * 512 + 1 * k.val = k.val; rw [e0]; omega
  | ⟨1, _⟩ => show win0_2.index t (1 : Fin 2) * 512 + 1 * h.val = h.val; rw [e1]; omega

/-- The second matrix's block at every point is the whole of `(D ∘ D)ᵀ`. -/
theorem d2_block (c : Dev nD) (t : Fin cfg0.N) (h : Fin 512) (q : Fin 960) :
    (iblk m c 3 t : Vec Ideal S512x960 .bf16) (ix2 h q) = argD m c (ix2 q h) * argD m c (ix2 q h) := by
  obtain ⟨-, -, -, -, -, -, e0, e1, -⟩ := block_indices t
  unfold iblk
  rw [View.read_apply]
  show prepD2 m c _ = _
  refine Eq.trans (congrArg _ (funext fun a => Fin.ext ?_)) (prepared_d2 m c h q)
  match a with
  | ⟨0, _⟩ => show win0_3.index t (0 : Fin 2) * 512 + 1 * h.val = h.val; rw [e0]; omega
  | ⟨1, _⟩ => show win0_3.index t (1 : Fin 2) * 960 + 1 * q.val = q.val; rw [e1]; omega

/-! ## What a point writes is its block of the specification -/

/-- The stored value at `(p, q)` of point `t`'s block is the specification at row `2048·t + p`, column `q`. -/
theorem stored_eq_spec (c : Dev nD) (t : Fin cfg0.N) (p : Fin 2048) (q : Fin 960) (b : Fin 32768) (hb : b.val = t.val * 2048 + p.val) :
    k0_pay1 (F := Ideal) (iblk m c 1 t) (iblk m c 2 t) (iblk m c 0 t) (iblk m c 3 t) (ix2 p q) = spec m c (ix2 b q) := by
  refine (Body.stored_apply _ _ _ _ p q).trans ?_
  rw [spec_apply]
  refine congrArg Ideal.logistic ?_
  unfold Cert.Score.score
  refine Finset.sum_congr rfl fun h _ => ?_
  rw [zi_block m c t p h b hb, d2_block m c t h q]
  refine congrArg (fun s => (argZi m c (ix2 b h) * s) * (argD m c (ix2 q h) * argD m c (ix2 q h))) ?_
  refine Finset.sum_congr rfl fun k _ => ?_
  rw [zj_block m c t p k b hb, rt_block m c t k h]

/-- What point `t` writes back is block `t` of the specification. -/
theorem flushed_eq (c : Dev nD) (t : Fin cfg0.N) :
    (dats m 0 c).flushed 4 t = ((cfg0.win 4).blk t).view.read (Elt Ideal) (spec m c) := by
  rw [Value.flushed4]
  unfold Gen.out0_4
  rw [View.canon_unit_zero offsets_zero]
  simp only [View.ld_unit_zero (S := S2048x512) offsets_zero, View.ld_unit_zero (S := S512x512) offsets_zero,
    View.ld_unit_zero (S := S512x960) offsets_zero]
  obtain ⟨-, -, -, -, -, -, -, -, e0, e1⟩ := block_indices t
  funext j
  obtain ⟨p, q, rfl⟩ : ∃ (p : Fin 2048) (q : Fin 960), j = ix2 p q := ⟨j 0, j 1, eq_ix2 j⟩
  have hlt : t.val * 2048 + p.val < 32768 := by
    have hN : cfg0.N = 16 := N_0
    have := t.isLt; have := p.isLt; omega
  rw [View.read_apply]
  refine (stored_eq_spec m c t p q ⟨t.val * 2048 + p.val, hlt⟩ rfl).trans ?_
  refine congrArg (spec m c) (funext fun a => Fin.ext ?_)
  match a with
  | ⟨0, _⟩ => show t.val * 2048 + p.val = win0_4.index t (0 : Fin 2) * 2048 + 1 * p.val; rw [e0]; omega
  | ⟨1, _⟩ => show q.val = win0_4.index t (1 : Fin 2) * 960 + 1 * q.val; rw [e1]; omega

/-! ## The sixteen blocks cover the array -/

/-- An index of the array is in point `t`'s block iff each coordinate is in the block's range on its axis. -/
theorem mem_block (t : Fin cfg0.N) (i : S32768x960.Idx) :
    i ∈ ((cfg0.win 4).blk t).view.set ↔ ∀ a : Fin 2, win0_4.index t a * S2048x960.size a ≤ (i a).val
      ∧ (i a).val < win0_4.index t a * S2048x960.size a + S2048x960.size a := by
  show i ∈ ((View.whole main_v5).slice (win0_4.rect t)).set ↔ _
  rw [View.set_slice_whole, Rect.mem_set_unit]
  exact Iff.rfl

/-- Row `b` lies in the block of point `b / 2048`. -/
theorem covered (i : S32768x960.Idx) : ∃ t : Fin cfg0.N, (cfg0.win 4).flush t = true ∧ i ∈ ((cfg0.win 4).blk t).view.set := by
  have hi0 : (i 0).val < 32768 := (i 0).isLt
  have hi1 : (i 1).val < 960 := (i 1).isLt
  have hN : cfg0.N = 16 := N_0
  refine ⟨⟨(i 0).val / 2048, by omega⟩, flush0_4 _, ?_⟩
  rw [mem_block]
  obtain ⟨-, -, -, -, -, -, -, -, e0, e1⟩ := block_indices ⟨(i 0).val / 2048, by omega⟩
  intro a
  match a with
  | ⟨0, _⟩ =>
    show win0_4.index _ (0 : Fin 2) * 2048 ≤ (i 0).val ∧ (i 0).val < win0_4.index _ (0 : Fin 2) * 2048 + 2048
    rw [e0]; show (i 0).val / 2048 * 2048 ≤ (i 0).val ∧ (i 0).val < (i 0).val / 2048 * 2048 + 2048; omega
  | ⟨1, _⟩ =>
    show win0_4.index _ (1 : Fin 2) * 960 ≤ (i 1).val ∧ (i 1).val < win0_4.index _ (1 : Fin 2) * 960 + 960
    rw [e1]; omega

/-! ## The array after the run, and the run -/

/-- The result array ends holding the specification's function of the arguments. -/
theorem final (c : Dev nD) : (dats m 0 c).arrAt 4 cfg0.N = spec m c :=
  (dats m 0 c).arrAt_eq_of_cover 4 (spec m c) (fun t _ => flushed_eq m c t) covered

/-- Every weakly fair execution of the kernel's program ends with the result array at the specification and the
    arguments unchanged. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  The kernel and its reference compute one function of the four argument arrays `zi`, `zj` (32768 × 512), `R` (512 × 512)
  and `D` (960 × 512), over the extended reals:

      result[b, r] = σ ( Σ_h  zi[b,h] · ( Σ_k zj[b,k] · R[h,k] ) · ( D[r,h] · D[r,h] ) ),     σ x = 1 / (1 + e^(-x)).

  The reference forms `zj · Rᵀ`, multiplies it entrywise by `zi`, multiplies the product by `(D ∘ D)ᵀ` and applies
  `1 / (1 + e^(-x))`.  The kernel's program first prepares `Rᵀ` and `(D ∘ D)ᵀ`, then at each of 16 grid points takes 2048 rows
  of `zi` and `zj`, forms the same two products on those rows and applies the sigmoid as one operation, which on the
  extended reals is by definition `1 / (1 + e^(-x))`.  A change of float format is the identity there, and a matrix product
  into a zero accumulator is the plain sum over the contracted index, so both sides are the double sum above with the same
  nesting and the same order of factors: no algebraic law is used, and the claims' precondition (every input finite) is
  never opened.

  The three frames are the programs' runs with the result dropped; the idealization rewrote nothing, so there is nothing to
  preserve; the value claim sets the kernel's whole-array result (`Whole.run`) beside the reference's (`RefValue.result_eq`).
-/
import proofs.«132086_j50895362458308_2_alg».proof.Defs
import proofs.«132086_j50895362458308_2_alg».proof.Proof.Gen.Kernel
import proofs.«132086_j50895362458308_2_alg».proof.Proof.Gen.Kernel.Skeleton
import proofs.«132086_j50895362458308_2_alg».proof.Proof.Gen.Kernel.Launch
import proofs.«132086_j50895362458308_2_alg».proof.Proof.Gen.Kernel.Points
import proofs.«132086_j50895362458308_2_alg».proof.Proof.Gen.Kernel.Frame
import proofs.«132086_j50895362458308_2_alg».proof.Proof.Gen.KernelIdeal
import proofs.«132086_j50895362458308_2_alg».proof.Proof.Gen.KernelIdeal.Skeleton
import proofs.«132086_j50895362458308_2_alg».proof.Proof.Gen.KernelIdeal.Launch
import proofs.«132086_j50895362458308_2_alg».proof.Proof.Gen.KernelIdeal.Points
import proofs.«132086_j50895362458308_2_alg».proof.Proof.Gen.KernelIdeal.Frame
import proofs.«132086_j50895362458308_2_alg».proof.Proof.Gen.ReferenceIdeal
import proofs.«132086_j50895362458308_2_alg».proof.Proof.Gen.KernelIdeal.Value
import proofs.«132086_j50895362458308_2_alg».proof.Proof.Gen.ReferenceIdeal.Run
import proofs.«132086_j50895362458308_2_alg».proof.Proof.Gen.ReferenceIdeal.Read
import proofs.«132086_j50895362458308_2_alg».proof.Proof.Gen.Pre_finite_inputs
import Idealize.ShloMosaic.Adequacy
import Idealize.ShloMosaic.Init
import proofs.«132086_j50895362458308_2_alg».proof.Proof.RefValue
import proofs.«132086_j50895362458308_2_alg».proof.Proof.Whole

noncomputable section

namespace Cert.Proof

open Idealize.ShloMosaic Idealize.SL.Sem Cert.Kernel

/-- The word-level kernel runs, faults nowhere and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the result array at the
    specification's `result` of the arguments: the kernel's by its sixteen blocks, the reference's read operation by
    operation. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
